-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x8 : Shape := ⟨3, ![32, 1024, 8]⟩
abbrev S_ : Shape := ⟨0, ![]⟩

class Facts : Prop where
  bcast_S_S32x1024x8 : S_.BroadcastsInDim S32x1024x8 (![] : Fin 0 → Fin S32x1024x8.rank)
  reducesTo_S32x1024x8_S_d0_1_2 : S32x1024x8.ReducesTo [0, 1, 2] S_
  h_S_ : 0 < S_.numel

variable [Facts]

def fn {F : FTy → Type} [FloatOps F] (main_arg0 : FVec F S32x1024x8 .f32) : IVec S_ 1 :=
  let main_v0 : FVec F S32x1024x8 .f32 := Host.absf main_arg0
  let main_cst : FVec F S_ .f32 := constant S_ .f32 0x7F800000#32
  let main_v1 : FVec F S32x1024x8 .f32 := broadcastInDim S32x1024x8 ![] bcast_S_S32x1024x8 main_cst
  let main_v2 : IVec S32x1024x8 1 := cmpf .olt main_v0 main_v1
  let main_c : IVec S_ 1 := constantI S_ 1 1#1
  let main_v3 : IVec S_ 1 := (fun x v => Host.reduce IntOp.andi x v reducesTo_S32x1024x8_S_d0_1_2 h_S_) main_v2 main_c
  main_v3
-- ==== Kernel.lean ====
abbrev S32x1024x8 : Shape := ⟨3, ![32, 1024, 8]⟩
abbrev S32x8x1024 : Shape := ⟨3, ![32, 8, 1024]⟩
abbrev S32x1024x1024 : Shape := ⟨3, ![32, 1024, 1024]⟩
abbrev S4x8x1024 : Shape := ⟨3, ![4, 8, 1024]⟩
abbrev S4x512x1024 : Shape := ⟨3, ![4, 512, 1024]⟩
abbrev S1x8x1024 : Shape := ⟨3, ![1, 8, 1024]⟩
abbrev S8x1024 : Shape := ⟨2, ![8, 1024]⟩
abbrev S1x8x512 : Shape := ⟨3, ![1, 8, 512]⟩
abbrev S8x512 : Shape := ⟨2, ![8, 512]⟩
abbrev S512x1024 : Shape := ⟨2, ![512, 1024]⟩
abbrev S512 : Shape := ⟨1, ![512]⟩
abbrev S512x1 : Shape := ⟨2, ![512, 1]⟩
abbrev S1x512x1024 : Shape := ⟨3, ![1, 512, 1024]⟩

abbrev nBuf : Space → Nat
  | .hbm => 3
  | .vmem => 4
  | .smem => 0
  | _ => 0

abbrev bufTy : (tb : Table) → Fin (tcTables nBuf tb) → BufTy
  | .hbm, ⟨0, _⟩ => ⟨S32x1024x8, .f32⟩
  | .hbm, ⟨1, _⟩ => ⟨S32x8x1024, .f32⟩
  | .hbm, ⟨2, _⟩ => ⟨S32x1024x1024, .f32⟩
  | .local _ .vmem, ⟨0, _⟩ => ⟨S4x8x1024, .f32⟩
  | .local _ .vmem, ⟨1, _⟩ => ⟨S4x8x1024, .f32⟩
  | .local _ .vmem, ⟨2, _⟩ => ⟨S4x512x1024, .f32⟩
  | .local _ .vmem, ⟨3, _⟩ => ⟨S4x512x1024, .f32⟩
  | _, _ => ⟨S32x1024x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 2], ![false, false]⟩

def k0_off1 (i : grid0.Coords) : Fin 3 → Nat :=
  let c0_2 : Index := 0#32
  let c0_3 : Index := 0#32
  let arg1 : BitVec 32 := BitVec.ofNat 32 (i 1).val
  let c512_i32 : BitVec 32 := 512#32
  let v2 : BitVec 32 := Scalar.muli arg1 c512_i32
  let v3 : Index := Scalar.indexCast v2
  ![0, 0, v3.toNat]
def k0_off2 (i : grid0.Coords) : Fin 3 → Nat :=
  let c1_19 : Index := 1#32
  let c0_20 : Index := 0#32
  let arg1 : BitVec 32 := BitVec.ofNat 32 (i 1).val
  let c512_i32_18 : BitVec 32 := 512#32
  let v37 : BitVec 32 := Scalar.muli arg1 c512_i32_18
  let v38 : Index := Scalar.indexCast v37
  ![1, 0, v38.toNat]
def k0_off3 (i : grid0.Coords) : Fin 3 → Nat :=
  let c2_37 : Index := 2#32
  let c0_38 : Index := 0#32
  let arg1 : BitVec 32 := BitVec.ofNat 32 (i 1).val
  let c512_i32_36 : BitVec 32 := 512#32
  let v72 : BitVec 32 := Scalar.muli arg1 c512_i32_36
  let v73 : Index := Scalar.indexCast v72
  ![2, 0, v73.toNat]
def k0_off4 (i : grid0.Coords) : Fin 3 → Nat :=
  let c3_55 : Index := 3#32
  let c0_56 : Index := 0#32
  let arg1 : BitVec 32 := BitVec.ofNat 32 (i 1).val
  let c512_i32_54 : BitVec 32 := 512#32
  let v107 : BitVec 32 := Scalar.muli arg1 c512_i32_54
  let v108 : Index := Scalar.indexCast v107
  ![3, 0, v108.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  transposes_S32x1024x8_S32x8x1024_0_2_1 : S32x1024x8.Transposes [0, 2, 1] S32x8x1024
  inb_S4x8x1024_S1x8x1024_0_0_0 : ∀ a, (![0, 0, 0] : Fin 3 → Nat) a + S1x8x1024.size a ≤ S4x8x1024.size a
  h_S1x8x1024 : 0 < S1x8x1024.numel
  shapeCasts_S1x8x1024_S8x1024 : S1x8x1024.ShapeCasts S8x1024
  h_S1x8x512 : 0 < S1x8x512.numel
  shapeCasts_S1x8x512_S8x512 : S1x8x512.ShapeCasts S8x512
  iota_S512x1024_d0_w32 : S512x1024.Iotas .tc 32 [0]
  iota_S512x1024_d1_w32 : S512x1024.Iotas .tc 32 [1]
  reduces_S512x1024_S512 : S512x1024.Reduces [1] S512
  shapeCasts_S512_S512x1 : S512.ShapeCasts S512x1
  shapeCasts_S512x1_S512x1 : S512x1.ShapeCasts S512x1
  broadcasts_S512x1_S512x1024 : S512x1.Broadcasts S512x1024
  inb_S4x512x1024_S1x512x1024_0_0_0 : ∀ a, (![0, 0, 0] : Fin 3 → Nat) a + S1x512x1024.size a ≤ S4x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  inb_S4x8x1024_S1x8x1024_1_0_0 : ∀ a, (![1, 0, 0] : Fin 3 → Nat) a + S1x8x1024.size a ≤ S4x8x1024.size a
  inb_S4x512x1024_S1x512x1024_1_0_0 : ∀ a, (![1, 0, 0] : Fin 3 → Nat) a + S1x512x1024.size a ≤ S4x512x1024.size a
  inb_S4x8x1024_S1x8x1024_2_0_0 : ∀ a, (![2, 0, 0] : Fin 3 → Nat) a + S1x8x1024.size a ≤ S4x8x1024.size a
  inb_S4x512x1024_S1x512x1024_2_0_0 : ∀ a, (![2, 0, 0] : Fin 3 → Nat) a + S1x512x1024.size a ≤ S4x512x1024.size a
  inb_S4x8x1024_S1x8x1024_3_0_0 : ∀ a, (![3, 0, 0] : Fin 3 → Nat) a + S1x8x1024.size a ≤ S4x8x1024.size a
  inb_S4x512x1024_S1x512x1024_3_0_0 : ∀ a, (![3, 0, 0] : Fin 3 → Nat) a + S1x512x1024.size a ≤ S4x512x1024.size a
  dot_S8x512_S8x1024_S512x1024_0_0_1_1_n_n_wf : DotDims.WF S8x512 S8x1024 S512x1024 [0] [0] [1] [1] [] []
  hrank0 : 0 < grid0.rank
  k0_off1_inb : ∀ i : grid0.Coords, ∀ a, (k0_off1 i) a + S1x8x512.size a ≤ S4x8x1024.size a
  k0_off2_inb : ∀ i : grid0.Coords, ∀ a, (k0_off2 i) a + S1x8x512.size a ≤ S4x8x1024.size a
  k0_off3_inb : ∀ i : grid0.Coords, ∀ a, (k0_off3 i) a + S1x8x512.size a ≤ S4x8x1024.size a
  k0_off4_inb : ∀ i : grid0.Coords, ∀ a, (k0_off4 i) a + S1x8x512.size a ≤ S4x8x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x8x1024.size a ≤ S32x8x1024.size a
  hwx0_0 : ∀ i : grid0.Coords, EltTy.bits .f32 = 32 ∨ (Rect.block (s := S32x8x1024) S4x8x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x1024.size a ≤ S32x1024x1024.size a
  hwx0_1 : ∀ i : grid0.Coords, EltTy.bits .f32 = 32 ∨ (Rect.block (s := S32x1024x1024) S4x512x1024.size (cc0_transform_1 i) (hinb0_1 i)).WholeWords (EltTy.packing .f32)

variable [Facts₀]

def dot_S8x512_S8x1024_S512x1024_0_0_1_1_n_n : DotDims S8x512 S8x1024 S512x1024 where
  lhsContracting := [0]
  rhsContracting := [0]
  lhsNonContracting := [1]
  rhsNonContracting := [1]
  lhsBatch := []
  rhsBatch := []
  wf := dot_S8x512_S8x1024_S512x1024_0_0_1_1_n_n_wf

abbrev win0_0 : Pipeline.Window sig grid0 :=
  Pipeline.Window.ofSpec (Memref.whole main_v0) S4x8x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x512x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x1024x8 : Shape := ⟨3, ![32, 1024, 8]⟩
abbrev S32x1024x1024 : Shape := ⟨3, ![32, 1024, 1024]⟩
abbrev S_ : Shape := ⟨0, ![]⟩
abbrev S1024x1024 : Shape := ⟨2, ![1024, 1024]⟩
abbrev S1x1024x1024 : Shape := ⟨3, ![1, 1024, 1024]⟩
abbrev S32x1024 : Shape := ⟨2, ![32, 1024]⟩
abbrev S32x1024x1 : Shape := ⟨3, ![32, 1024, 1]⟩

abbrev nBuf : Space → Nat
  | .hbm => 40
  | .vmem => 0
  | .smem => 0
  | _ => 0

abbrev bufTy : (tb : Table) → Fin (tcTables nBuf tb) → BufTy
  | .hbm, ⟨0, _⟩ => ⟨S32x1024x8, .f32⟩
  | .hbm, ⟨1, _⟩ => ⟨S32x1024x1024, .f32⟩
  | .hbm, ⟨2, _⟩ => ⟨S32x1024x1024, .f32⟩
  | .hbm, ⟨3, _⟩ => ⟨S_, .f32⟩
  | .hbm, ⟨4, _⟩ => ⟨S32x1024x1024, .f32⟩
  | .hbm, ⟨5, _⟩ => ⟨S32x1024x1024, .i1⟩
  | .hbm, ⟨6, _⟩ => ⟨S_, .f32⟩
  | .hbm, ⟨7, _⟩ => ⟨S32x1024x1024, .f32⟩
  | .hbm, ⟨8, _⟩ => ⟨S32x1024x1024, .i1⟩
  | .hbm, ⟨9, _⟩ => ⟨S_, .f32⟩
  | .hbm, ⟨10, _⟩ => ⟨S_, .f32⟩
  | .hbm, ⟨11, _⟩ => ⟨S32x1024x1024, .f32⟩
  | .hbm, ⟨12, _⟩ => ⟨S32x1024x1024, .f32⟩
  | .hbm, ⟨13, _⟩ => ⟨S32x1024x1024, .f32⟩
  | .hbm, ⟨14, _⟩ => ⟨S_, .f32⟩
  | .hbm, ⟨15, _⟩ => ⟨S32x1024x1024, .f32⟩
  | .hbm, ⟨16, _⟩ => ⟨S32x1024x1024, .f32⟩
  | .hbm, ⟨17, _⟩ => ⟨S32x1024x1024, .f32⟩
  | .hbm, ⟨18, _⟩ => ⟨S1024x1024, .i32⟩
  | .hbm, ⟨19, _⟩ => ⟨S1024x1024, .i32⟩
  | .hbm, ⟨20, _⟩ => ⟨S_, .i32⟩
  | .hbm, ⟨21, _⟩ => ⟨S1024x1024, .i32⟩
  | .hbm, ⟨22, _⟩ => ⟨S1024x1024, .i32⟩
  | .hbm, ⟨23, _⟩ => ⟨S1024x1024, .i1⟩
  | .hbm, ⟨24, _⟩ => ⟨S1x1024x1024, .i1⟩
  | .hbm, ⟨25, _⟩ => ⟨S_, .f32⟩
  | .hbm, ⟨26, _⟩ => ⟨S_, .f32⟩
  | .hbm, ⟨27, _⟩ => ⟨S32x1024x1024, .i1⟩
  | .hbm, ⟨28, _⟩ => ⟨S32x1024x1024, .f32⟩
  | .hbm, ⟨29, _⟩ => ⟨S32x1024x1024, .f32⟩
  | .hbm, ⟨30, _⟩ => ⟨S_, .f32⟩
  | .hbm, ⟨31, _⟩ => ⟨S32x1024, .f32⟩
  | .hbm, ⟨32, _⟩ => ⟨S32x1024x1024, .f32⟩
  | .hbm, ⟨33, _⟩ => ⟨S1x1024x1024, .i1⟩
  | .hbm, ⟨34, _⟩ => ⟨S1x1024x1024, .f32⟩
  | .hbm, ⟨35, _⟩ => ⟨S32x1024x1, .f32⟩
  | .hbm, ⟨36, _⟩ => ⟨S32x1024x1024, .f32⟩
  | .hbm, ⟨37, _⟩ => ⟨S32x1024x1024, .f32⟩
  | .hbm, ⟨38, _⟩ => ⟨S32x1024x1024, .f32⟩
  | .hbm, ⟨39, _⟩ => ⟨S32x1024x1024, .f32⟩
  | _, _ => ⟨S32x1024x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_cst_2 : Ref sig .tc := ⟨.hbm, 10, rfl⟩
abbrev main_call0_v0 : Ref sig .tc := ⟨.hbm, 11, rfl⟩
abbrev main_call0_v1 : Ref sig .tc := ⟨.hbm, 12, rfl⟩
abbrev main_v6 : Ref sig .tc := ⟨.hbm, 13, rfl⟩
abbrev main_cst_3 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_call2_v0 : Ref sig .tc := ⟨.hbm, 26, rfl⟩
abbrev main_call2_v1 : Ref sig .tc := ⟨.hbm, 27, rfl⟩
abbrev main_call2_v2 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩

abbrev nD : Nat := 1
abbrev τ : Topo := Topo.v7x

variable {F : FTy → Type} [FloatOps F]

class Facts₀ : Prop where
  bcast_S_S32x1024x1024 : S_.BroadcastsInDim S32x1024x1024 (![] : Fin 0 → Fin S32x1024x1024.rank)
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S32x1024x1024_0_1_2 : S1x1024x1024.BroadcastsInDim S32x1024x1024 (![0, 1, 2] : Fin 3 → Fin S32x1024x1024.rank)
  reducesTo_S32x1024x1024_S32x1024_d2 : S32x1024x1024.ReducesTo [2] S32x1024
  h_S_ : 0 < S_.numel
  bcast_S32x1024_S32x1024x1_0_1 : S32x1024.BroadcastsInDim S32x1024x1 (![0, 1] : Fin 2 → Fin S32x1024x1.rank)
  bcast_S32x1024x1_S32x1024x1024_0_1_2 : S32x1024x1.BroadcastsInDim S32x1024x1024 (![0, 1, 2] : Fin 3 → Fin S32x1024x1024.rank)
  dot_S32x1024x8_S32x1024x8_S32x1024x1024_2_2_1_1_0_0_wf : DotDims.WF S32x1024x8 S32x1024x8 S32x1024x1024 [2] [2] [1] [1] [0] [0]

variable [Facts₀]

def dot_S32x1024x8_S32x1024x8_S32x1024x1024_2_2_1_1_0_0 : DotDims S32x1024x8 S32x1024x8 S32x1024x1024 where
  lhsContracting := [2]
  rhsContracting := [2]
  lhsNonContracting := [1]
  rhsNonContracting := [1]
  lhsBatch := [0]
  rhsBatch := [0]
  wf := dot_S32x1024x8_S32x1024x8_S32x1024x1024_2_2_1_1_0_0_wf

class Facts : Prop extends Facts₀ where

variable [Facts]
-- ==== Proof.Laplacian.lean ====
/-
  The graph Laplacian of thresholded squared overlaps, as pure arithmetic on the extended reals.

  For one batch element let g(i, j) = ∑ₖ x(i, k) · x(j, k) be the Gram matrix of the rows of x, f = g · g its
  entrywise square, and w(i, j) the edge weight: 1 where f ≥ 0.95, else 1/2 where f ≥ 1/2, else 0, and 0 on the
  diagonal. The Laplacian is L = D − W with D the diagonal of the row sums of W:

      L(i, j) = −w(i, j)            for i ≠ j,
      L(i, i) = ∑ⱼ w(i, j).

  Two ways of writing a row of L are met. One stores the NEGATED weights −w directly, sums them along the row, and
  puts 0 − (that sum) on the diagonal. The other builds w, its row sum d, and forms −w + e · d with e the
  indicator of the diagonal. Every weight is one of the three real numbers 0, 1/2, 1, so both rows are rows of real
  numbers and the identity −∑ⱼ (−wⱼ) = ∑ⱼ wⱼ is the real one; nothing is asked of the entries of x, whose Gram
  values enter only through the two threshold tests.
-/
import Idealize.ShloMosaic.PureOps.Ideal.Laws
import Idealize.ShloMosaic.Lib.ValueIdx

noncomputable section

namespace Cert.Laplacian

open Idealize.ShloMosaic

/-! ## The five constants -/

theorem one_val : Ideal.ofBits .f32 0x3F800000#32 = ((1 : ℝ) : EReal) := by
  simp [Ideal.ofBits, Ideal.ieee, -EReal.coe_mul]; norm_num

theorem half_val : Ideal.ofBits .f32 0x3F000000#32 = ((1 / 2 : ℝ) : EReal) := by
  simp [Ideal.ofBits, Ideal.ieee, -EReal.coe_mul]; norm_num

theorem neg_one_val : Ideal.ofBits .f32 0xBF800000#32 = ((-1 : ℝ) : EReal) := by
  simp [Ideal.ofBits, Ideal.ieee, -EReal.coe_mul]; norm_num

theorem neg_half_val : Ideal.ofBits .f32 0xBF000000#32 = ((-(1 / 2) : ℝ) : EReal) := by
  simp [Ideal.ofBits, Ideal.ieee, -EReal.coe_mul]; norm_num

theorem zero_val : Ideal.ofBits .f32 0x00000000#32 = ((0 : ℝ) : EReal) := by
  rw [Ideal.ofBits_zero_f32, EReal.coe_zero]

/-! ## A finite sum of real numbers, inside the extended reals -/

theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-! ## The edge weight of one Gram value -/

/-- The weight chosen by the two threshold tests (each a one-bit word): 1 if the upper test holds, else 1/2 if the
    lower one does, else 0. -/
def weightOf (c₁ c₂ : BitVec 1) : ℝ := if c₁ = 1#1 then 1 else if c₂ = 1#1 then 1 / 2 else 0

/-- The upper test of a Gram value: its square against 0.95 (as the nearest single-precision number). -/
def upper (g : EReal) : BitVec 1 := Ideal.cmp .oge (g * g) (Ideal.ofBits .f32 0x3F733333#32)
/-- The lower test of a Gram value: its square against 1/2. -/
def lower (g : EReal) : BitVec 1 := Ideal.cmp .oge (g * g) (Ideal.ofBits .f32 0x3F000000#32)

/-- The edge weight of a Gram value. -/
def weight (g : EReal) : ℝ := weightOf (upper g) (lower g)

/-- Selecting 1, 1/2 or 0 by the two tests gives the weight. -/
theorem select_weight (c₁ c₂ : BitVec 1) :
    Scalar.select c₁ (Ideal.ofBits .f32 0x3F800000#32)
        (Scalar.select c₂ (Ideal.ofBits .f32 0x3F000000#32) (Ideal.ofBits .f32 0x00000000#32))
      = ((weightOf c₁ c₂ : ℝ) : EReal) := by
  unfold weightOf
  by_cases h₁ : c₁ = 1#1
  · rw [if_pos h₁, h₁, ValueIdx.select_one, one_val]
  · rw [if_neg h₁, ValueIdx.eq_zero_of_ne_one h₁, ValueIdx.select_zero]
    by_cases h₂ : c₂ = 1#1
    · rw [if_pos h₂, h₂, ValueIdx.select_one, half_val]
    · rw [if_neg h₂, ValueIdx.eq_zero_of_ne_one h₂, ValueIdx.select_zero, zero_val]

/-- Selecting −1, −1/2 or 0 by the two tests gives the negated weight. -/
theorem select_neg_weight (c₁ c₂ : BitVec 1) :
    Scalar.select c₁ (Ideal.ofBits .f32 0xBF800000#32)
        (Scalar.select c₂ (Ideal.ofBits .f32 0xBF000000#32) (Ideal.ofBits .f32 0x00000000#32))
      = ((-(weightOf c₁ c₂) : ℝ) : EReal) := by
  unfold weightOf
  by_cases h₁ : c₁ = 1#1
  · rw [if_pos h₁, h₁, ValueIdx.select_one, neg_one_val]
  · rw [if_neg h₁, ValueIdx.eq_zero_of_ne_one h₁, ValueIdx.select_zero]
    by_cases h₂ : c₂ = 1#1
    · rw [if_pos h₂, h₂, ValueIdx.select_one, neg_half_val]
    · rw [if_neg h₂, ValueIdx.eq_zero_of_ne_one h₂, ValueIdx.select_zero, zero_val, neg_zero]

/-! ## One row of the Laplacian -/

variable {n : ℕ}

/-- The weights of the row whose diagonal sits at column d: the weight of each Gram value, 0 on the diagonal. -/
def rowWeight (d : ℕ) (g : Fin n → EReal) (q : Fin n) : ℝ := if d = q.val then 0 else weight (g q)

/-- That row of the Laplacian from its row g of Gram values: the degree on the diagonal, minus the weight off it. -/
def row (d : ℕ) (g : Fin n → EReal) (q : Fin n) : EReal :=
  if d = q.val then ((∑ q', rowWeight d g q' : ℝ) : EReal) else ((-(weight (g q)) : ℝ) : EReal)

/-- A negated weight with the diagonal cleared is minus the row weight. -/
theorem masked_neg_weight (d : ℕ) (g : Fin n → EReal) (D : Fin n → BitVec 1) (hD : ∀ q, D q = 1#1 ↔ d = q.val)
    (q : Fin n) :
    Scalar.select (D q) (Ideal.ofBits .f32 0x00000000#32)
        (Scalar.select (upper (g q)) (Ideal.ofBits .f32 0xBF800000#32)
          (Scalar.select (lower (g q)) (Ideal.ofBits .f32 0xBF000000#32) (Ideal.ofBits .f32 0x00000000#32)))
      = ((-(rowWeight d g q) : ℝ) : EReal) := by
  rw [select_neg_weight]
  unfold rowWeight
  by_cases h : d = q.val
  · rw [(hD q).mpr h, ValueIdx.select_one, if_pos h, zero_val, neg_zero]
  · rw [ValueIdx.eq_zero_of_ne_one (fun e => h ((hD q).mp e)), ValueIdx.select_zero, if_neg h]; rfl

/-- A weight with the diagonal cleared is the row weight. -/
theorem masked_weight (d : ℕ) (g : Fin n → EReal) (D : Fin n → BitVec 1) (hD : ∀ q, D q = 1#1 ↔ d = q.val)
    (q : Fin n) :
    Scalar.select (D q) (Ideal.ofBits .f32 0x00000000#32)
        (Scalar.select (upper (g q)) (Ideal.ofBits .f32 0x3F800000#32)
          (Scalar.select (lower (g q)) (Ideal.ofBits .f32 0x3F000000#32) (Ideal.ofBits .f32 0x00000000#32)))
      = ((rowWeight d g q : ℝ) : EReal) := by
  rw [select_weight]
  unfold rowWeight
  by_cases h : d = q.val
  · rw [(hD q).mpr h, ValueIdx.select_one, if_pos h, zero_val]
  · rw [ValueIdx.eq_zero_of_ne_one (fun e => h ((hD q).mp e)), ValueIdx.select_zero, if_neg h]; rfl

/-- THE FIRST WRITING: negated weights stored directly, 0 minus their row sum on the diagonal. -/
theorem row_of_negated (d : ℕ) (g : Fin n → EReal) (D : Fin n → BitVec 1) (hD : ∀ q, D q = 1#1 ↔ d = q.val)
    (q : Fin n) :
    Scalar.select (D q)
        (Ideal.ofBits .f32 0x00000000#32 - ∑ q' : Fin n,
          Scalar.select (D q') (Ideal.ofBits .f32 0x00000000#32)
            (Scalar.select (upper (g q')) (Ideal.ofBits .f32 0xBF800000#32)
              (Scalar.select (lower (g q')) (Ideal.ofBits .f32 0xBF000000#32) (Ideal.ofBits .f32 0x00000000#32))))
        (Scalar.select (D q) (Ideal.ofBits .f32 0x00000000#32)
          (Scalar.select (upper (g q)) (Ideal.ofBits .f32 0xBF800000#32)
            (Scalar.select (lower (g q)) (Ideal.ofBits .f32 0xBF000000#32) (Ideal.ofBits .f32 0x00000000#32))))
      = row d g q := by
  rw [Finset.sum_congr rfl fun q' _ => masked_neg_weight d g D hD q', masked_neg_weight d g D hD q, coe_sum,
    zero_val, ← EReal.coe_sub]
  unfold row
  by_cases h : d = q.val
  · rw [(hD q).mpr h, ValueIdx.select_one, if_pos h]
    refine congrArg _ ?_
    rw [Finset.sum_neg_distrib, zero_sub, neg_neg]
  · rw [ValueIdx.eq_zero_of_ne_one (fun e => h ((hD q).mp e)), ValueIdx.select_zero, if_neg h]
    refine congrArg _ ?_
    unfold rowWeight; rw [if_neg h]

/-- THE SECOND WRITING: the weights, their row sum from 0, then minus the weight plus the diagonal's indicator
    (the one-bit word read as the number 0 or 1) times the sum. -/
theorem row_of_degree (d : ℕ) (g : Fin n → EReal) (D : Fin n → BitVec 1) (hD : ∀ q, D q = 1#1 ↔ d = q.val)
    (q : Fin n) :
    -(Scalar.select (D q) (Ideal.ofBits .f32 0x00000000#32)
          (Scalar.select (upper (g q)) (Ideal.ofBits .f32 0x3F800000#32)
            (Scalar.select (lower (g q)) (Ideal.ofBits .f32 0x3F000000#32) (Ideal.ofBits .f32 0x00000000#32))))
        + (((D q).toNat : ℝ) : EReal) * (Ideal.ofBits .f32 0x00000000#32 + ∑ q' : Fin n,
            Scalar.select (D q') (Ideal.ofBits .f32 0x00000000#32)
              (Scalar.select (upper (g q')) (Ideal.ofBits .f32 0x3F800000#32)
                (Scalar.select (lower (g q')) (Ideal.ofBits .f32 0x3F000000#32) (Ideal.ofBits .f32 0x00000000#32))))
      = row d g q := by
  rw [Finset.sum_congr rfl fun q' _ => masked_weight d g D hD q', masked_weight d g D hD q, coe_sum,
    zero_val, ← EReal.coe_add, ← EReal.coe_neg, ← EReal.coe_mul, ← EReal.coe_add]
  unfold row
  by_cases h : d = q.val
  · rw [if_pos h, (hD q).mpr h]
    refine congrArg _ ?_
    unfold rowWeight; rw [if_pos h]
    simp
  · rw [if_neg h, ValueIdx.eq_zero_of_ne_one (fun e => h ((hD q).mp e))]
    refine congrArg _ ?_
    unfold rowWeight; rw [if_neg h]
    simp

end Cert.Laplacian

end
-- ==== Proof.LibKeepdims.lean ====
/-
  Column-shaped layout operations read at an index given by coordinates.

  A sum taken along the last axis with the axis kept (a "keepdims" row sum) leaves a COLUMN: the vector of
  sums `[a]` is re-laid as `[a, 1]` and then broadcast along the new unit axis to `[a, b]`. Read at `(p, c)`
  each of the two steps returns the operand's entry for row `p`, whatever the column `c`: the cast because
  the row-major position of `(p, 0)` in `[a, 1]` is `p · 1 + 0 = p`, the broadcast because a unit axis is read
  at `0` and every other axis at the result's own coordinate. (The transposed pair — a vector re-laid as one row
  `[1, b]` and that row broadcast over `a` rows — is already in the layout library.)
-/
import Idealize.ShloMosaic.Lib.Pipeline.Value
import Idealize.ShloMosaic.Lib.ValueIdx

namespace Cert.Lib.Keepdims

open Idealize.ShloMosaic Idealize.ShloMosaic.ValueIdx

variable {α : Type}

/-- An `[a]` vector cast to the column `[a, 1]` reads, at `(i, u)`, the operand at `i`: the unit coordinate `u`
    is `0`, and `(i, 0)` sits at row-major position `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry for row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.LibMatmulTN.lean ====
/-
  A matrix product that contracts the FIRST axis of both operands, read at an entry.

  For a left operand A of shape [K, M] and a right operand B of shape [K, N], the product that contracts axis 0 of A
  with axis 0 of B (no batch axes; the result's axes are A's axis 1 then B's axis 1) is Aᵀ · B:

      (Aᵀ B)(p, q) = ∑ₖ A(k, p) · B(k, q).

  Over the extended reals, accumulated into the zero matrix, the product read at (p, q) is exactly this sum over the
  K coordinates of the contracted axis. The dimension record is fixed here once for all extents; a record printed with
  the same six lists is this one (its well-formedness is a proposition, so the two are equal by reflexivity).
-/
import Idealize.ShloMosaic.PureOps.Ideal.Laws
import Idealize.ShloMosaic.Lib.ValueIdx

noncomputable section

namespace Cert.Lib.MatmulTN

open Idealize.ShloMosaic Idealize.ShloMosaic.ValueIdx

/-- The dimension numbers of Aᵀ · B for A of shape [K, M] and B of shape [K, N]: both operands contract their axis 0,
    keep their axis 1, and have no batch axis. -/
def dims (K M N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- Entry (p, q) of Aᵀ · B accumulated into the zero matrix, over the extended reals: the sum over the contracted
    coordinate k of A(k, p) · B(k, q). -/
theorem apply (K M N : ℕ) {φ₁ φ₂ : FTy} (prec : Option ContractPrecision)
    (lhs : FVec Ideal ⟨2, ![K, M]⟩ φ₁) (rhs : FVec Ideal ⟨2, ![K, N]⟩ φ₂) (p : Fin M) (q : Fin N) :
    FloatOps.matmul (dims K M N) prec lhs rhs (constant ⟨2, ![M, N]⟩ .f32 0x00000000#32) (ix2 p q)
      = ∑ k : Fin K, lhs (ix2 k p) * rhs (ix2 k q) := by
  rw [Ideal.matmul_constant_zero_apply, ← Equiv.sum_comp (contrEquiv1 (dims K M N) K rfl rfl).symm]
  refine Finset.sum_congr rfl fun k _ => ?_
  have hk := contrEquiv1_symm_val (dims K M N) K rfl rfl k
  have el : (dims K M N).lhsIdx (ix2 p q) ((contrEquiv1 (dims K M N) K rfl rfl).symm k) = ix2 k p :=
    funext fun a => Fin.ext (by
      match a with
      | ⟨0, _⟩ => exact ((dims K M N).lhsIdx_val_of_single (cl := 0) rfl _ _).trans hk
      | ⟨1, h1⟩ =>
        have hb : ¬(⟨1, h1⟩ : Fin 2) ∈ (dims K M N).lhsBatch := List.not_mem_nil
        have hn : (⟨1, h1⟩ : Fin 2) ∈ (dims K M N).lhsNonContracting := List.mem_singleton.mpr rfl
        unfold DotDims.lhsIdx
        rw [dif_neg hb, dif_pos hn]
        rfl)
  have er : (dims K M N).rhsIdx (ix2 p q) ((contrEquiv1 (dims K M N) K rfl rfl).symm k) = ix2 k q :=
    funext fun a => Fin.ext (by
      match a with
      | ⟨0, _⟩ => exact ((dims K M N).rhsIdx_val_of_single (cr := 0) rfl _ _).trans hk
      | ⟨1, h1⟩ =>
        have hb : ¬(⟨1, h1⟩ : Fin 2) ∈ (dims K M N).rhsBatch := List.not_mem_nil
        have hn : (⟨1, h1⟩ : Fin 2) ∈ (dims K M N).rhsNonContracting := List.mem_singleton.mpr rfl
        unfold DotDims.rhsIdx
        rw [dif_neg hb, dif_pos hn]
        rfl)
  rw [el, er]

end Cert.Lib.MatmulTN

end
-- ==== Proof.RowTile.lean ====
/-
  One 512 × 1024 tile of the Laplacian, as the kernel body computes it, read at an entry.

  For one batch element the body holds the transposed states S (8 × 1024: S(k, n) is wire k of state n) and the 512
  columns of S that belong to the tile's rows, R (8 × 512: R(k, p) = S(k, 512·r + p) for the tile's row block r).
  It forms the Gram tile G = Rᵀ S, G(p, q) = ∑ₖ R(k, p) · S(k, q); squares it entrywise; selects the NEGATED edge weight
  (−1 where the square reaches 0.95, else −1/2 where it reaches 1/2, else 0); clears the entries on the diagonal of the
  whole matrix, which in this tile are those with 512·r + p = q; sums each row; and puts 0 − (row sum) on that
  diagonal. Read at (p, q) this is row 512·r + p of the Laplacian (Laplacian.row) built from the Gram row
  q' ↦ ∑ₖ R(k, p) · S(k, q'), at column q.

  The body's arithmetic is restated below in three named stages (the diagonal test, the masked negated weights, the
  tile), each read at an index by itself; the printed payload is these stages by unfolding.
-/
import proofs.«166562_g65481071400876_cont_9to1_m_40_15_alg».proof.Proof.Gen.KernelIdeal.Skeleton
import proofs.«166562_g65481071400876_cont_9to1_m_40_15_alg».proof.Proof.Laplacian
import proofs.«166562_g65481071400876_cont_9to1_m_40_15_alg».proof.Proof.LibKeepdims
import proofs.«166562_g65481071400876_cont_9to1_m_40_15_alg».proof.Proof.LibMatmulTN
import Idealize.ShloMosaic.Lib.Pipeline.Value
import Idealize.ShloMosaic.Lib.ValueIdx
import Idealize.ShloMosaic.Lib.Affine
import Idealize.ShloMosaic.PureOps.Ideal.Laws

noncomputable section

namespace Cert.KernelIdeal.RowTile

open Cert.KernelIdeal Cert.KernelIdeal.Gen
open Idealize.ShloMosaic Idealize.ShloMosaic.ValueIdx

/-! ## The diagonal of the whole matrix, inside a tile -/

/-- The body's diagonal test: the tile's row coordinate plus the row block's offset (the row block number times 512, as
    a 32-bit word) against the column coordinate. -/
def diag (a : BitVec 32) : IVec S512x1024 1 :=
  cmpi .eq (addi (iota .tc S512x1024 32 [0] Facts₀.iota_S512x1024_d0_w32) (broadcast S512x1024 (Scalar.muli a 512#32)))
    (iota .tc S512x1024 32 [1] Facts₀.iota_S512x1024_d1_w32)

/-- In row block r (0 or 1) the test holds at (p, q) exactly when 512·r + p = q: none of the words wraps. -/
theorem diag_iff (r : ℕ) (hr : r < 2) (p : Fin 512) (q : Fin 1024) :
    diag (BitVec.ofNat 32 r) (ix2 p q) = 1#1 ↔ 512 * r + p.val = q.val := by
  show IntOp.cmpi .eq (IntOp.addi (iota .tc S512x1024 32 [0] Facts₀.iota_S512x1024_d0_w32 (ix2 p q))
      (Scalar.muli (BitVec.ofNat 32 r) 512#32)) (iota .tc S512x1024 32 [1] Facts₀.iota_S512x1024_d1_w32 (ix2 p q)) = 1#1 ↔ _
  rw [iota_single_apply, iota_single_apply, IntOp.cmpi_eq]
  show BitVec.ofNat 32 p.val + BitVec.ofNat 32 r * 512#32 = BitVec.ofNat 32 q.val ↔ _
  have hp : p.val < 512 := p.isLt
  have hq : q.val < 1024 := q.isLt
  constructor
  · intro h
    have h' := congrArg BitVec.toNat h
    simp only [BitVec.toNat_add, BitVec.toNat_mul, BitVec.toNat_ofNat] at h'
    omega
  · intro h
    apply BitVec.eq_of_toNat_eq
    simp only [BitVec.toNat_add, BitVec.toNat_mul, BitVec.toNat_ofNat]
    omega

/-! ## The negated weights with the diagonal cleared -/

/-- From the Gram tile: square, the two threshold tests, the negated weight, 0 where the diagonal test holds. -/
def masked (a : BitVec 32) (G : FVec Ideal S512x1024 .f32) : FVec Ideal S512x1024 .f32 :=
  select (diag a) (broadcast S512x1024 (Scalar.ofBits .f32 0x00000000#32))
    (select (cmpf .oge (mulf G G) (broadcast S512x1024 (Scalar.ofBits .f32 0x3F733333#32)))
      (broadcast S512x1024 (Scalar.ofBits .f32 0xBF800000#32))
      (select (cmpf .oge (mulf G G) (broadcast S512x1024 (Scalar.ofBits .f32 0x3F000000#32)))
        (broadcast S512x1024 (Scalar.ofBits .f32 0xBF000000#32))
        (broadcast S512x1024 (Scalar.ofBits .f32 0x00000000#32))))

theorem masked_apply (a : BitVec 32) (G : FVec Ideal S512x1024 .f32) (i : S512x1024.Idx) :
    masked a G i = Scalar.select (diag a i) (Ideal.ofBits .f32 0x00000000#32)
      (Scalar.select (Laplacian.upper (G i)) (Ideal.ofBits .f32 0xBF800000#32)
        (Scalar.select (Laplacian.lower (G i)) (Ideal.ofBits .f32 0xBF000000#32) (Ideal.ofBits .f32 0x00000000#32))) := rfl

/-! ## A row sum along the tile's columns -/

/-- The sum along axis 1 of a 512 × 1024 tile, read at row p: the sum over the 1024 columns. -/
theorem rowSum_apply (T : FVec Ideal S512x1024 .f32) (h : S512x1024.Reduces [1] S512) (hφ : FKind.Formats .f32)
    (hacc : (0x00000000#32 : BitVec FTy.f32.bits) = FKind.add.neutral .f32 hφ) (p : Fin 512) :
    multiReduction .add [1] S512 T 0x00000000#32 h hφ hacc (ix1 p) = ∑ q' : Fin 1024, T (ix2 p q') :=
  (Ideal.multiReduction_add_single T _ h hφ hacc (ix1 p)).trans
    (Finset.sum_congr rfl fun k _ => congrArg T (funext fun b => Fin.ext (by
      match b with
      | ⟨0, _⟩ => rfl
      | ⟨1, _⟩ => rfl)))

/-! ## The tile -/

/-- The stored tile from the Gram tile: the masked negated weights, and on the diagonal 0 minus their row sum (the sum
    kept as a column, subtracted from a column of zeros, spread along the row), under a leading unit axis. -/
def tile (a : BitVec 32) (G : FVec Ideal S512x1024 .f32) : FVec Ideal S1x512x1024 .f32 :=
  shapeCast S1x512x1024
    (select (diag a)
      (broadcastTo S512x1024
        (shapeCast S512x1
          (subf (broadcast S512x1 (Scalar.ofBits .f32 0x00000000#32))
            (shapeCast S512x1 (multiReduction .add [1] S512 (masked a G) 0x00000000#32 Facts₀.reduces_S512x1024_S512 (.inl rfl) rfl)
              Facts₀.shapeCasts_S512_S512x1))
          Facts₀.shapeCasts_S512x1_S512x1)
        Facts₀.broadcasts_S512x1_S512x1024)
      (masked a G))
    Facts₀.shapeCasts_S512x1024_S1x512x1024

/-- The printed payload is the tile of the Gram tile Rᵀ S accumulated into the zero matrix. -/
theorem pay_eq_tile (a : BitVec 32) (st : FVec Ideal S8x1024 .f32) (sr : FVec Ideal S8x512 .f32)
    (z : FVec Ideal S512x1024 .f32) :
    k0_pay1 (F := Ideal) a st sr z = tile a (matmul dot_S8x512_S8x1024_S512x1024_0_0_1_1_n_n none sr st z) := rfl

/-- The tile at (p, q): on the diagonal 0 minus the row sum of the masked negated weights, off it the masked negated
    weight. -/
theorem tile_apply (a : BitVec 32) (G : FVec Ideal S512x1024 .f32) (u : Fin 1) (p : Fin 512) (q : Fin 1024) :
    tile a G (ix3 u p q)
      = Scalar.select (diag a (ix2 p q))
          (Ideal.ofBits .f32 0x00000000#32 - ∑ q' : Fin 1024, masked a G (ix2 p q'))
          (masked a G (ix2 p q)) := by
  unfold tile
  refine (shapeCast_addUnit_apply (n := 2) ![512, 1024] _ _ (ix3 u p q)).trans ?_
  have e : (fun b : Fin 2 => ix3 u p q b.succ) = ix2 p q := funext fun b => by
    match b with
    | ⟨0, _⟩ => rfl
    | ⟨1, _⟩ => rfl
  rw [e]
  refine congrArg (fun x => Scalar.select (diag a (ix2 p q)) x (masked a G (ix2 p q))) ?_
  refine (Cert.Lib.Keepdims.broadcastTo_a1_ab_apply _ _ p q).trans ?_
  rw [shapeCast_self]
  refine congrArg (fun x => Ideal.ofBits .f32 0x00000000#32 - x) ?_
  refine (Cert.Lib.Keepdims.shapeCast_a_a1_apply _ _ p (0 : Fin 1)).trans ?_
  exact rowSum_apply _ _ _ _ p

/-- THE PAYLOAD AT AN ENTRY. In row block r, from the transposed states S and the tile's columns R of it, the stored
    value at (p, q) is row 512·r + p of the Laplacian over the Gram row q' ↦ ∑ₖ R(k, p) · S(k, q'), at column q. -/
theorem pay_apply (r : ℕ) (hr : r < 2) (st : FVec Ideal S8x1024 .f32) (sr : FVec Ideal S8x512 .f32)
    (u : Fin 1) (p : Fin 512) (q : Fin 1024) :
    k0_pay1 (F := Ideal) (BitVec.ofNat 32 r) st sr (constant S512x1024 .f32 0x00000000#32) (ix3 u p q)
      = Laplacian.row (512 * r + p.val) (fun q' : Fin 1024 => ∑ k : Fin 8, sr (ix2 k p) * st (ix2 k q')) q := by
  rw [pay_eq_tile, tile_apply]
  have hG : ∀ q' : Fin 1024,
      matmul dot_S8x512_S8x1024_S512x1024_0_0_1_1_n_n none sr st (constant S512x1024 .f32 0x00000000#32) (ix2 p q')
        = ∑ k : Fin 8, sr (ix2 k p) * st (ix2 k q') :=
    fun q' => Cert.Lib.MatmulTN.apply 8 512 1024 none sr st p q'
  simp only [masked_apply, hG]
  exact Laplacian.row_of_negated (512 * r + p.val) (fun q' : Fin 1024 => ∑ k : Fin 8, sr (ix2 k p) * st (ix2 k q'))
    (fun q' => diag (BitVec.ofNat 32 r) (ix2 p q')) (fun q' => diag_iff r hr p q') q

end Cert.KernelIdeal.RowTile

end
-- ==== Proof.Block.lean ====
/-
  What one grid point leaves in its output block: four tiles of the Laplacian, one per batch element of the block.

  At a grid point with row block r the body holds the input block X (4 × 8 × 1024: four batch elements of the transposed
  states, X(g, k, n) wire k of state n of element g) and fills the output block (4 × 512 × 1024) by four stores, one per
  batch element g: the tile built from the slab X(g, ·, ·) and from its 512 columns 512·r … 512·r + 511. Read back, the
  four pieces are one function of the block index (g, p, q):

      row 512·r + p of the Laplacian over the Gram row q' ↦ ∑ₖ X(g, k, 512·r + p) · X(g, k, q'), at column q.

  The input block is read through an accessor on natural-number coordinates (0 outside the block), so that the
  statement carries no bounds.
-/
import proofs.«166562_g65481071400876_cont_9to1_m_40_15_alg».proof.Proof.Gen.KernelIdeal.Frame
import proofs.«166562_g65481071400876_cont_9to1_m_40_15_alg».proof.Proof.RowTile
import Idealize.ShloMosaic.Lib.Pipeline.Value
import Idealize.ShloMosaic.Lib.Tactic

set_option maxRecDepth 16384

noncomputable section

namespace Cert.KernelIdeal.Block

open Cert.KernelIdeal Cert.KernelIdeal.Gen
open Idealize.ShloMosaic Idealize.ShloMosaic.ValueIdx Idealize.ShloMosaic.TcCoe Idealize.ShloMosaic.Tactic

/-! ## The input block, on natural-number coordinates -/

/-- Entry (g, k, n) of the input block, 0 outside it. -/
def at3 (x0 : S4x8x1024.Idx → EReal) (g k n : ℕ) : EReal :=
  if h : g < 4 ∧ k < 8 ∧ n < 1024 then x0 (ix3 ⟨g, h.1⟩ ⟨k, h.2.1⟩ ⟨n, h.2.2⟩) else 0

theorem at3_eq (x0 : S4x8x1024.Idx → EReal) (g : Fin 4) (k : Fin 8) (n : Fin 1024) :
    at3 x0 g.val k.val n.val = x0 (ix3 g k n) := dif_pos ⟨g.isLt, k.isLt, n.isLt⟩

/-- What the output block holds after the body, as one function of the block index. -/
def blockFn (r : ℕ) (x0 : S4x8x1024.Idx → EReal) : S4x512x1024.Idx → EReal := fun y =>
  Laplacian.row (512 * r + (y 1).val)
    (fun q' : Fin 1024 => ∑ k : Fin 8, at3 x0 (y 0).val k.val (512 * r + (y 1).val) * at3 x0 (y 0).val k.val q'.val)
    (⟨(y 2).val, (y 2).isLt⟩ : Fin 1024)

theorem row_congr {n : ℕ} {d d' : ℕ} {g g' : Fin n → EReal} {q q' : Fin n} (hd : d = d') (hg : g = g') (hq : q = q') :
    Laplacian.row d g q = Laplacian.row d' g' q' := by subst hd hg hq; rfl

/-! ## The body's two loads of batch element g -/

/-- The slab of batch element g, its leading unit axis dropped: entry (k, n) is X(g, k, n). -/
theorem slab_apply (g : ℕ) (hg : g < 4) (x0 : Vec Ideal S4x8x1024 .f32)
    (inb : ∀ a, (![g, 0, 0] : Fin 3 → ℕ) a + (![1, 8, 1024] : Fin 3 → ℕ) a ≤ S4x8x1024.size a)
    (sc : S1x8x1024.ShapeCasts S8x1024) (k : Fin 8) (n : Fin 1024) :
    shapeCast S8x1024 (View.ld x0 (Rect.unit (s := S4x8x1024) ![g, 0, 0] ![1, 8, 1024] inb)) sc (ix2 k n)
      = at3 x0 g k.val n.val := by
  refine (shapeCast_dropUnit_apply (n := 2) ![8, 1024] _ sc (ix2 k n)).trans ?_
  refine Eq.trans (congrArg x0 (funext fun a => Fin.ext ?_)) (at3_eq x0 ⟨g, hg⟩ k n).symm
  match a with
  | ⟨0, _⟩ => show g + 1 * 0 = g; omega
  | ⟨1, _⟩ => show 0 + 1 * k.val = k.val; omega
  | ⟨2, _⟩ => show 0 + 1 * n.val = n.val; omega

/-- The row block's offset as a word, r·512 on 32 bits read back as a number, is 512·r for r < 2. -/
theorem off_val (r : ℕ) (hr : r < 2) :
    BitVec.toNat (Scalar.indexCast (Scalar.muli (BitVec.ofNat 32 r) 512#32)) = 512 * r := by
  show (BitVec.ofNat 32 r * 512#32).toNat = 512 * r
  simp only [BitVec.toNat_mul, BitVec.toNat_ofNat]
  omega

/-- The 512 columns of that slab from column 512·r on: entry (k, p) is X(g, k, 512·r + p). -/
theorem cols_apply (r : ℕ) (hr : r < 2) (g : ℕ) (hg : g < 4) (x0 : Vec Ideal S4x8x1024 .f32)
    (inb : ∀ a, (![g, 0, BitVec.toNat (Scalar.indexCast (Scalar.muli (BitVec.ofNat 32 r) 512#32))] : Fin 3 → ℕ) a
      + (![1, 8, 512] : Fin 3 → ℕ) a ≤ S4x8x1024.size a)
    (sc : S1x8x512.ShapeCasts S8x512) (k : Fin 8) (p : Fin 512) :
    shapeCast S8x512 (View.ld x0 (Rect.unit (s := S4x8x1024)
        ![g, 0, BitVec.toNat (Scalar.indexCast (Scalar.muli (BitVec.ofNat 32 r) 512#32))] ![1, 8, 512] inb)) sc (ix2 k p)
      = at3 x0 g k.val (512 * r + p.val) := by
  have hp : p.val < 512 := p.isLt
  refine (shapeCast_dropUnit_apply (n := 2) ![8, 512] _ sc (ix2 k p)).trans ?_
  refine Eq.trans (congrArg x0 (funext fun a => Fin.ext ?_)) (at3_eq x0 ⟨g, hg⟩ k ⟨512 * r + p.val, by omega⟩).symm
  match a with
  | ⟨0, _⟩ => show g + 1 * 0 = g; omega
  | ⟨1, _⟩ => show 0 + 1 * k.val = k.val; omega
  | ⟨2, _⟩ =>
    show BitVec.toNat (Scalar.indexCast (Scalar.muli (BitVec.ofNat 32 r) 512#32)) + 1 * p.val = 512 * r + p.val
    rw [off_val r hr]; omega

/-! ## One stored piece -/

/-- The tile stored for batch element g, through its rectangle of the output block, is the block function there. -/
theorem piece (r : ℕ) (hr : r < 2) (g : ℕ) (x0 : Vec Ideal S4x8x1024 .f32)
    (st : FVec Ideal S8x1024 .f32) (sr : FVec Ideal S8x512 .f32)
    (hst : ∀ (k : Fin 8) (n : Fin 1024), st (ix2 k n) = at3 x0 g k.val n.val)
    (hsr : ∀ (k : Fin 8) (p : Fin 512), sr (ix2 k p) = at3 x0 g k.val (512 * r + p.val))
    (inb : ∀ a, (![g, 0, 0] : Fin 3 → ℕ) a + (![1, 512, 1024] : Fin 3 → ℕ) a ≤ S4x512x1024.size a)
    (x : (Rect.unit (s := S4x512x1024) ![g, 0, 0] ![1, 512, 1024] inb).shape.Idx) :
    k0_pay1 (F := Ideal) (BitVec.ofNat 32 r) st sr (constant S512x1024 .f32 0x00000000#32) x
      = blockFn r x0 ((Rect.unit (s := S4x512x1024) ![g, 0, 0] ![1, 512, 1024] inb).emb x) := by
  obtain ⟨u, p, q, rfl⟩ : ∃ (u : Fin 1) (p : Fin 512) (q : Fin 1024), x = ix3 u p q := ⟨x 0, x 1, x 2, eq_ix3 x⟩
  rw [RowTile.pay_apply r hr st sr u p q]
  unfold blockFn
  have hu : u.val = 0 := by have := u.isLt; omega
  have e0 : (((Rect.unit (s := S4x512x1024) ![g, 0, 0] ![1, 512, 1024] inb).emb (ix3 u p q)) 0).val = g := by
    show g + 1 * u.val = g; omega
  have e1 : (((Rect.unit (s := S4x512x1024) ![g, 0, 0] ![1, 512, 1024] inb).emb (ix3 u p q)) 1).val = p.val := by
    show 0 + 1 * p.val = p.val; omega
  have e2 : (((Rect.unit (s := S4x512x1024) ![g, 0, 0] ![1, 512, 1024] inb).emb (ix3 u p q)) 2).val = q.val := by
    show 0 + 1 * q.val = q.val; omega
  refine row_congr (by rw [e1]) (funext fun q' => Finset.sum_congr rfl fun k _ => ?_) (Fin.ext e2.symm)
  rw [hsr, hst, e0, e1]

/-! ## The output block after the body -/

/-- What the body leaves in the output block, at any grid point and on any staging memrefs, from the input block. -/
theorem out_apply (c : Dev nD) (i : grid0.Coords) (a2 : Memref sig .tc .vmem S4x8x1024 .f32) (h2 : a2.IsWhole)
    (a3 : Memref sig .tc .vmem S4x512x1024 .f32) (h3 : a3.IsWhole) (x0 : Vec Ideal S4x8x1024 .f32)
    (y : S4x512x1024.Idx) :
    out0_A_1 (F := Ideal) c i a2 h2 a3 h3 x0 y = blockFn (i 1).val x0 y := by
  have hr : (i 1).val < 2 := (i 1).isLt
  unfold out0_A_1
  rw [View.read_writes_eq_canon _ _ _ (cover0_A_1 c i a2 h2 a3 h3 x0)]
  refine View.canon_apply_of_pieces (blockFn (i 1).val x0) _ ?_ y (cover0_A_1 c i a2 h2 a3 h3 x0 y)
  unfold kernelRun0_A
  dsimp only
  sl_unfold_words
  simp only [View.readAt_eq_ld, h2.read_unread]
  intro pc hpc
  simp only [List.mem_cons, List.not_mem_nil, or_false] at hpc
  rcases hpc with rfl | rfl | rfl | rfl
  · intro x
    exact piece (i 1).val hr 3 x0 _ _
      (fun k n => slab_apply 3 (by decide) x0 _ Facts₀.shapeCasts_S1x8x1024_S8x1024 k n)
      (fun k p => cols_apply (i 1).val hr 3 (by decide) x0 _ Facts₀.shapeCasts_S1x8x512_S8x512 k p)
      Facts₀.inb_S4x512x1024_S1x512x1024_3_0_0 x
  · intro x
    exact piece (i 1).val hr 2 x0 _ _
      (fun k n => slab_apply 2 (by decide) x0 _ Facts₀.shapeCasts_S1x8x1024_S8x1024 k n)
      (fun k p => cols_apply (i 1).val hr 2 (by decide) x0 _ Facts₀.shapeCasts_S1x8x512_S8x512 k p)
      Facts₀.inb_S4x512x1024_S1x512x1024_2_0_0 x
  · intro x
    exact piece (i 1).val hr 1 x0 _ _
      (fun k n => slab_apply 1 (by decide) x0 _ Facts₀.shapeCasts_S1x8x1024_S8x1024 k n)
      (fun k p => cols_apply (i 1).val hr 1 (by decide) x0 _ Facts₀.shapeCasts_S1x8x512_S8x512 k p)
      Facts₀.inb_S4x512x1024_S1x512x1024_1_0_0 x
  · intro x
    exact piece (i 1).val hr 0 x0 _ _
      (fun k n => slab_apply 0 (by decide) x0 _ Facts₀.shapeCasts_S1x8x1024_S8x1024 k n)
      (fun k p => cols_apply (i 1).val hr 0 (by decide) x0 _ Facts₀.shapeCasts_S1x8x512_S8x512 k p)
      Facts₀.inb_S4x512x1024_S1x512x1024_0_0_0 x

end Cert.KernelIdeal.Block

end
-- ==== Proof.Spec.lean ====
/-
  The result array: the Laplacian of every batch element, as one function of the argument array.

  The argument x has shape 32 × 1024 × 8: batch element b, state n, wire k. Entry (b, i, j) of the result (32 × 1024 × 1024)
  is entry j of row i of the Laplacian of batch element b (Laplacian.row), whose Gram row is
  j' ↦ ∑ₖ x(b, i, k) · x(b, j', k). The argument is read through an accessor on natural-number coordinates (0 outside
  the array), so that the function is stated without bounds.
-/
import proofs.«166562_g65481071400876_cont_9to1_m_40_15_alg».proof.Proof.Laplacian
import Idealize.ShloMosaic.Lib.ValueIdx

noncomputable section

namespace Cert.LapSpec

open Idealize.ShloMosaic Idealize.ShloMosaic.ValueIdx

/-- Entry (b, n, k) of the argument array, 0 outside it. -/
def atX (x : (⟨3, ![32, 1024, 8]⟩ : Shape).Idx → EReal) (b n k : ℕ) : EReal :=
  if h : b < 32 ∧ n < 1024 ∧ k < 8 then x (ix3 ⟨b, h.1⟩ ⟨n, h.2.1⟩ ⟨k, h.2.2⟩) else 0

theorem atX_eq (x : (⟨3, ![32, 1024, 8]⟩ : Shape).Idx → EReal) (b : Fin 32) (n : Fin 1024) (k : Fin 8) :
    atX x b.val n.val k.val = x (ix3 b n k) := dif_pos ⟨b.isLt, n.isLt, k.isLt⟩

/-- The Gram row of state i of batch element b. -/
def gramRow (x : (⟨3, ![32, 1024, 8]⟩ : Shape).Idx → EReal) (b i : ℕ) : Fin 1024 → EReal :=
  fun j => ∑ k : Fin 8, atX x b i k.val * atX x b j.val k.val

/-- The result array. -/
def lap (x : (⟨3, ![32, 1024, 8]⟩ : Shape).Idx → EReal) : (⟨3, ![32, 1024, 1024]⟩ : Shape).Idx → EReal := fun idx =>
  Laplacian.row (idx 1).val (gramRow x (idx 0).val (idx 1).val) (⟨(idx 2).val, (idx 2).isLt⟩ : Fin 1024)

end Cert.LapSpec

end
-- ==== Proof.KernelValue.lean ====
/-
  The kernel's result array is the Laplacian of every batch element.

  Before the region the program transposes the argument x (32 × 1024 × 8) into X (32 × 8 × 1024), X(b, k, n) = x(b, n, k).
  The grid has 8 × 2 points; at point (t₀, t₁) the input block is batch elements 4t₀ … 4t₀ + 3 of X, whole, and the output
  block is rows 512t₁ … 512t₁ + 511 of the same batch elements of the result. So the input block's entry (g, k, n) is
  x(4t₀ + g, n, k); the body leaves in the output block, at (g, p, q), row 512t₁ + p of the Laplacian of batch element
  4t₀ + g at column q; and that is the result function at the array index (4t₀ + g, 512t₁ + p, q) the block's entry
  lands on. The sixteen output blocks tile the array, every point writes its block back, so the array ends holding the
  result function everywhere.
-/
import proofs.«166562_g65481071400876_cont_9to1_m_40_15_alg».proof.Proof.Gen.KernelIdeal.Value
import proofs.«166562_g65481071400876_cont_9to1_m_40_15_alg».proof.Proof.Block
import proofs.«166562_g65481071400876_cont_9to1_m_40_15_alg».proof.Proof.Spec
import Idealize.ShloMosaic.Lib.Pipeline.Value
import Idealize.ShloMosaic.Lib.StableHlo.Run
import Idealize.ShloMosaic.Lib.ValueIdx

set_option maxRecDepth 16384

noncomputable section

namespace Cert.KernelIdeal.RunValue

open Cert.KernelIdeal Cert.KernelIdeal.Gen Cert.KernelIdeal.Value
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-! ## The transposed argument, as the region finds it -/

/-- The region's input array is the argument with its last two axes exchanged. -/
theorem V_transposed (c : Dev nD) :
    (V m c main_v0 : S32x8x1024.Idx → EReal)
      = transpose S32x8x1024 [0, 2, 1] (m ((c : Thread nD τ).loc main_arg0)) Facts₀.transposes_S32x1024x8_S32x8x1024_0_2_1 := by
  dsimp only [Gen.V, Gen.hostOps0]
  after_results

/-- Entry (b, k, n) of the region's input array is x(b, n, k). -/
theorem V_apply (c : Dev nD) (b : Fin 32) (k : Fin 8) (n : Fin 1024) :
    (V m c main_v0 : S32x8x1024.Idx → EReal) (ix3 b k n)
      = LapSpec.atX (m ((c : Thread nD τ).loc main_arg0)) b.val n.val k.val := by
  rw [V_transposed, LapSpec.atX_eq]
  refine transpose_apply _ _ _ (ix3 b k n) (ix3 b n k) fun a => ?_
  match a with
  | ⟨0, _⟩ => rfl
  | ⟨1, _⟩ => rfl
  | ⟨2, _⟩ => rfl

/-! ## The two index maps over the grid -/

/-- Decided over the sixteen points: the input block moves with the output block along the batch axis only; the output
    block's row-block index is the point's second coordinate. -/
theorem idx_facts : ∀ t : Fin cfg0.N,
    win0_0.index t (0 : Fin 3) = win0_1.index t (0 : Fin 3) ∧ win0_0.index t (1 : Fin 3) = 0 ∧ win0_0.index t (2 : Fin 3) = 0
    ∧ win0_1.index t (1 : Fin 3) = (grid0.coords t 1).val ∧ win0_1.index t (2 : Fin 3) = 0
    ∧ win0_1.index t (0 : Fin 3) < 8 ∧ (grid0.coords t 1).val < 2 :=
  (by decide +kernel : ∀ t : Fin grid0.N, _)

/-- Every pair (batch block, row block) is some point's. -/
theorem idx_onto : ∀ (q0 : Fin 8) (q1 : Fin 2), ∃ t : Fin cfg0.N, win0_1.index t = ![q0.val, q1.val, 0] :=
  (by decide +kernel : ∀ (q0 : Fin 8) (q1 : Fin 2), ∃ t : Fin grid0.N, win0_1.index t = ![q0.val, q1.val, 0])

/-! ## The input block at a point -/

/-- Entry (g, k, n) of the input block at point t is x(4t₀ + g, n, k). -/
theorem iblk_apply (c : Dev nD) (t : Fin cfg0.N) (g : Fin 4) (k : Fin 8) (n : Fin 1024) :
    iblk m c 0 t (ix3 g k n)
      = LapSpec.atX (m ((c : Thread nD τ).loc main_arg0)) (4 * win0_1.index t (0 : Fin 3) + g.val) n.val k.val := by
  obtain ⟨e0, e1, e2, e3, e4, e5, e6⟩ := idx_facts t
  have hg : g.val < 4 := g.isLt
  show (V m c main_v0 : S32x8x1024.Idx → EReal) (((cfg0.win 0).blk t).view.emb (ix3 g k n)) = _
  have hb : 4 * win0_1.index t (0 : Fin 3) + g.val < 32 := by omega
  refine Eq.trans (congrArg (V m c main_v0 : S32x8x1024.Idx → EReal) (?_ :
      ((cfg0.win 0).blk t).view.emb (ix3 g k n) = ix3 ⟨4 * win0_1.index t (0 : Fin 3) + g.val, hb⟩ k n))
    (V_apply m c ⟨4 * win0_1.index t (0 : Fin 3) + g.val, hb⟩ k n)
  funext a; apply Fin.ext
  match a with
  | ⟨0, _⟩ => show win0_0.index t (0 : Fin 3) * 4 + 1 * g.val = 4 * win0_1.index t (0 : Fin 3) + g.val; omega
  | ⟨1, _⟩ => show win0_0.index t (1 : Fin 3) * 8 + 1 * k.val = k.val; omega
  | ⟨2, _⟩ => show win0_0.index t (2 : Fin 3) * 1024 + 1 * n.val = n.val; omega

/-- The same through the accessor on natural-number coordinates. -/
theorem at3_iblk (c : Dev nD) (t : Fin cfg0.N) (g k n : ℕ) (hg : g < 4) (hk : k < 8) (hn : n < 1024) :
    Block.at3 (iblk m c 0 t) g k n
      = LapSpec.atX (m ((c : Thread nD τ).loc main_arg0)) (4 * win0_1.index t (0 : Fin 3) + g) n k :=
  (Block.at3_eq (iblk m c 0 t) ⟨g, hg⟩ ⟨k, hk⟩ ⟨n, hn⟩).trans (iblk_apply m c t ⟨g, hg⟩ ⟨k, hk⟩ ⟨n, hn⟩)

/-! ## What a point writes back -/

/-- Point t writes back its block of the result function of the argument. -/
theorem flushed_eq (c : Dev nD) (t : Fin cfg0.N) :
    (dats m 0 c).flushed 1 t
      = ((cfg0.win 1).blk t).view.read (Elt Ideal) (LapSpec.lap (m ((c : Thread nD τ).loc main_arg0))) := by
  rw [flushed1_A]
  obtain ⟨e0, e1, e2, e3, e4, e5, e6⟩ := idx_facts t
  funext j
  have h0 : (j 0).val < 4 := (j 0).isLt
  have h1 : (j 1).val < 512 := (j 1).isLt
  have h2 : (j 2).val < 1024 := (j 2).isLt
  show out0_A_1 (F := Ideal) c (grid0.coords t) (ms0_0 t) (hs0_0 t) (ms0_1 t) (hs0_1 t) (iblk m c 0 t)
      ((cfg0.win 1).xinj (grid0.coords t) j)
    = LapSpec.lap (m ((c : Thread nD τ).loc main_arg0)) (((cfg0.win 1).blk t).view.emb j)
  rw [Block.out_apply]
  unfold Block.blockFn LapSpec.lap
  have a0 : ((((cfg0.win 1).blk t).view.emb j) 0).val = 4 * win0_1.index t (0 : Fin 3) + (j 0).val := by
    show win0_1.index t (0 : Fin 3) * 4 + 1 * (j 0).val = _; omega
  have a1 : ((((cfg0.win 1).blk t).view.emb j) 1).val = 512 * (grid0.coords t 1).val + (j 1).val := by
    show win0_1.index t (1 : Fin 3) * 512 + 1 * (j 1).val = _; omega
  have a2 : ((((cfg0.win 1).blk t).view.emb j) 2).val = (j 2).val := by
    show win0_1.index t (2 : Fin 3) * 1024 + 1 * (j 2).val = _; omega
  refine Block.row_congr a1.symm (funext fun q' => ?_) (Fin.ext a2.symm)
  unfold LapSpec.gramRow
  rw [a0, a1]
  refine Finset.sum_congr rfl fun k _ => ?_
  rw [at3_iblk m c t (j 0).val k.val (512 * (grid0.coords t 1).val + (j 1).val) h0 k.isLt (by omega),
    at3_iblk m c t (j 0).val k.val q'.val h0 k.isLt q'.isLt]

/-! ## The cover -/

/-- An index of the result array is in point t's block iff each coordinate is in the block's range on its axis. -/
theorem mem_blk (t : Fin cfg0.N) (i : S32x1024x1024.Idx) :
    i ∈ ((cfg0.win 1).blk t).view.set ↔ ∀ a : Fin 3, win0_1.index t a * S4x512x1024.size a ≤ (i a).val
      ∧ (i a).val < win0_1.index t a * S4x512x1024.size a + S4x512x1024.size a := by
  show i ∈ ((View.whole main_v1).slice (win0_1.rect t)).set ↔ _
  rw [View.set_slice_whole, Rect.mem_set_unit]
  exact Iff.rfl

/-- Every index of the result array is in the block of the point (batch block, row block) = (b / 4, i / 512). -/
theorem cover (i : S32x1024x1024.Idx) :
    ∃ t : Fin cfg0.N, (cfg0.win 1).flush t = true ∧ i ∈ ((cfg0.win 1).blk t).view.set := by
  have hi0 : (i 0).val < 32 := (i 0).isLt
  have hi1 : (i 1).val < 1024 := (i 1).isLt
  have hi2 : (i 2).val < 1024 := (i 2).isLt
  obtain ⟨t, ht⟩ := idx_onto ⟨(i 0).val / 4, by omega⟩ ⟨(i 1).val / 512, by omega⟩
  have q0 : win0_1.index t (0 : Fin 3) = (i 0).val / 4 := congrFun ht 0
  have q1 : win0_1.index t (1 : Fin 3) = (i 1).val / 512 := congrFun ht 1
  have q2 : win0_1.index t (2 : Fin 3) = 0 := congrFun ht 2
  refine ⟨t, flush0_1 t, ?_⟩
  rw [mem_blk]
  intro a
  match a with
  | ⟨0, _⟩ =>
    show win0_1.index t (0 : Fin 3) * 4 ≤ (i 0).val ∧ (i 0).val < win0_1.index t (0 : Fin 3) * 4 + 4; omega
  | ⟨1, _⟩ =>
    show win0_1.index t (1 : Fin 3) * 512 ≤ (i 1).val ∧ (i 1).val < win0_1.index t (1 : Fin 3) * 512 + 512; omega
  | ⟨2, _⟩ =>
    show win0_1.index t (2 : Fin 3) * 1024 ≤ (i 2).val ∧ (i 2).val < win0_1.index t (2 : Fin 3) * 1024 + 1024; omega

/-! ## The result array, and the run -/

/-- After the run the result array holds the result function of the argument. -/
theorem final (c : Dev nD) : (dats m 0 c).arrAt 1 cfg0.N = LapSpec.lap (m ((c : Thread nD τ).loc main_arg0)) :=
  (dats m 0 c).arrAt_eq_of_cover 1 (LapSpec.lap (m ((c : Thread nD τ).loc main_arg0))) (fun t _ => flushed_eq m c t) cover

/-- Every weakly fair execution of the kernel's program terminates with the result array at the Laplacian of every
    batch element of the argument, and the argument unchanged. -/
theorem run : θ_run defs (onTc (τ := τ) (main (F := Ideal))) ⟨m, fun _ => 0, ρ⟩ fun r => ∀ c : Dev nD,
      r.2.mem ((c : Thread nD τ).loc main_v1) = LapSpec.lap (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.RunValue

end
-- ==== Proof.Reference.lean ====
/-
  The reference's result is the Laplacian of every batch element.

  The reference forms the Gram matrices by one batched product g(b, i, j) = ∑ₖ x(b, i, k) · x(b, j, k), squares them,
  selects the edge weight (1, 1/2 or 0 by the two threshold tests), clears the diagonal (an index comparison i = j,
  spread over the batch), sums each row from 0 into the degree, and returns −w + e · degree with e the diagonal's
  indicator as a number. Read at (b, i, j) this is the second writing of row i of the Laplacian
  (Laplacian.row_of_degree) over the Gram row of state i of batch element b.
-/
import proofs.«166562_g65481071400876_cont_9to1_m_40_15_alg».proof.Proof.Gen.ReferenceIdeal.Read
import proofs.«166562_g65481071400876_cont_9to1_m_40_15_alg».proof.Proof.Spec
import Idealize.ShloMosaic.Lib.ValueIdx
import Idealize.ShloMosaic.Lib.Affine
import Idealize.ShloMosaic.PureOps.Ideal.Laws

noncomputable section

namespace Cert.ReferenceIdeal.RefValue

open Cert.ReferenceIdeal Cert.ReferenceIdeal.Read
open Idealize.ShloMosaic Idealize.ShloMosaic.ValueIdx

/-- The diagonal test at (i, j): the row coordinate (plus a zero word) against the column coordinate. -/
def dbit (i j : ℕ) : BitVec 1 := IntOp.cmpi .eq (IntOp.addi (BitVec.ofNat 32 i) 0#32) (BitVec.ofNat 32 j)

/-- It holds exactly on the diagonal: coordinates below 1024 do not wrap. -/
theorem dbit_iff (i : ℕ) (hi : i < 1024) (j : Fin 1024) : dbit i j.val = 1#1 ↔ i = j.val := by
  unfold dbit
  rw [IntOp.cmpi_eq]
  show BitVec.ofNat 32 i + 0#32 = BitVec.ofNat 32 j.val ↔ _
  have hj : j.val < 1024 := j.isLt
  constructor
  · intro h
    have h' := congrArg BitVec.toNat h
    simp only [BitVec.toNat_add, BitVec.toNat_ofNat] at h'
    omega
  · intro h
    apply BitVec.eq_of_toNat_eq
    simp only [BitVec.toNat_add, BitVec.toNat_ofNat]
    omega

variable (x : (⟨S32x1024x8, .f32⟩ : BufTy).Contents (Elt Ideal))

/-- The Gram value at (b, i, j). -/
theorem gram_apply (b : Fin 32) (i j : Fin 1024) :
    val_main_v0 (F := Ideal) x (ix3 b i j) = LapSpec.gramRow x b.val i.val j := by
  rw [val_main_v0_apply]
  unfold LapSpec.gramRow
  refine Finset.sum_congr rfl fun k _ => ?_
  rw [LapSpec.atX_eq x b i k, LapSpec.atX_eq x b j k]
  refine congrArg₂ (· * ·) (congrArg x (funext fun a => Fin.ext ?_)) (congrArg x (funext fun a => Fin.ext ?_))
  · match a with
    | ⟨0, _⟩ => rfl
    | ⟨1, _⟩ => rfl
    | ⟨2, _⟩ => rfl
  · match a with
    | ⟨0, _⟩ => rfl
    | ⟨1, _⟩ => rfl
    | ⟨2, _⟩ => rfl

/-- The diagonal test spread over the batch, at (b, i, j). -/
theorem diag_apply (b : Fin 32) (i j : Fin 1024) :
    val_main_call2_v1 (F := Ideal) (ix3 b i j) = dbit i.val j.val := by
  rw [val_main_call2_v1_apply, val_main_v14_apply, val_main_v13_apply, val_main_v12_apply, val_main_v9_apply,
    val_main_v10_apply, val_main_v11_apply, val_main_c_apply]
  rfl

/-- The diagonal's indicator as a number, at (b, i, j). -/
theorem eye_apply (b : Fin 32) (i j : Fin 1024) :
    val_main_v21 (F := Ideal) (ix3 b i j) = (((dbit i.val j.val).toNat : ℝ) : EReal) := by
  rw [val_main_v21_apply, val_main_v19_apply, val_main_v18_apply, val_main_v13_apply, val_main_v12_apply,
    val_main_v9_apply, val_main_v10_apply, val_main_v11_apply, val_main_c_apply]
  rfl

/-- The weight with the diagonal cleared, at (b, i, j). -/
theorem weight_apply (b : Fin 32) (i j : Fin 1024) :
    val_main_v15 (F := Ideal) x (ix3 b i j)
      = Scalar.select (dbit i.val j.val) (Ideal.ofBits .f32 0x00000000#32)
          (Scalar.select (Laplacian.upper (LapSpec.gramRow x b.val i.val j)) (Ideal.ofBits .f32 0x3F800000#32)
            (Scalar.select (Laplacian.lower (LapSpec.gramRow x b.val i.val j)) (Ideal.ofBits .f32 0x3F000000#32)
              (Ideal.ofBits .f32 0x00000000#32))) := by
  rw [val_main_v15_apply, diag_apply, val_main_call2_v2_apply, val_main_call2_v0_apply, val_main_cst_4_apply,
    val_main_v8_apply, val_main_v7_apply, val_main_v3_apply, val_main_v2_apply, val_main_cst_apply,
    val_main_call1_v0_apply, val_main_cst_3_apply, val_main_v6_apply, val_main_v5_apply, val_main_v4_apply,
    val_main_cst_0_apply, val_main_call0_v0_apply, val_main_cst_1_apply, val_main_call0_v1_apply, val_main_cst_2_apply,
    val_main_v1_apply, gram_apply]
  rfl

/-- The degree of state i of batch element b: the row sum of the cleared weights, from 0. -/
theorem degree_apply (b : Fin 32) (i j : Fin 1024) :
    val_main_v22 (F := Ideal) x (ix3 b i j)
      = Ideal.ofBits .f32 0x00000000#32 + ∑ j' : Fin 1024,
          Scalar.select (dbit i.val j'.val) (Ideal.ofBits .f32 0x00000000#32)
            (Scalar.select (Laplacian.upper (LapSpec.gramRow x b.val i.val j')) (Ideal.ofBits .f32 0x3F800000#32)
              (Scalar.select (Laplacian.lower (LapSpec.gramRow x b.val i.val j')) (Ideal.ofBits .f32 0x3F000000#32)
                (Ideal.ofBits .f32 0x00000000#32))) := by
  rw [val_main_v22_apply, val_main_v20_apply, val_main_v16_apply, val_main_cst_5_apply]
  refine congrArg (Ideal.ofBits .f32 0x00000000#32 + ·) (Finset.sum_congr rfl fun j' _ => ?_)
  refine Eq.trans (congrArg (val_main_v15 (F := Ideal) x) (funext fun a => Fin.ext ?_)) (weight_apply x b i j')
  match a with
  | ⟨0, _⟩ => rfl
  | ⟨1, _⟩ => rfl
  | ⟨2, _⟩ => rfl

/-- THE REFERENCE'S RESULT is the Laplacian of every batch element. -/
theorem result_eq : val_main_v24 (F := Ideal) x = LapSpec.lap x := by
  funext idx
  obtain ⟨b, i, j, rfl⟩ : ∃ (b : Fin 32) (i j : Fin 1024), idx = ix3 b i j := ⟨idx 0, idx 1, idx 2, eq_ix3 idx⟩
  rw [val_main_v24_apply, val_main_v17_apply, val_main_v23_apply, weight_apply, eye_apply, degree_apply]
  exact Laplacian.row_of_degree i.val (LapSpec.gramRow x b.val i.val) (fun j' => dbit i.val j'.val)
    (fun j' => dbit_iff i.val i.isLt j') j

end Cert.ReferenceIdeal.RefValue

end
-- ==== Proof.lean ====
/-
  Two programs compute the graph Laplacians L = D − W of 32 batch elements from their states x (1024 states of 8 wires each).
  The edge weight between states i ≠ j is read off the squared overlap f(i, j) = (∑ₖ x(i, k) · x(j, k))²: 1 where f ≥ 0.95,
  1/2 where f ≥ 1/2, 0 otherwise; W has zero diagonal and D is the diagonal of W's row sums.

  The kernel works on the transposed states, one block of four batch elements and 512 rows at a time: it forms the Gram
  tile on the matrix unit, squares it, selects the NEGATED weight −w directly, clears the diagonal, sums each row, and
  writes 0 − (row sum) on the diagonal and −w off it. The reference forms all Gram matrices by one batched product, builds
  w, clears the diagonal, sums the rows into the degrees d, and returns −w + e · d with e the identity matrix as numbers.

  Over the extended reals both results are, entry by entry, one function of x (LapSpec.lap): off the diagonal −w(i, j),
  on it ∑ⱼ w(i, j). The two Gram sums have the same eight terms; the threshold tests are the same comparisons of the
  same numbers; every weight is one of 0, 1/2, 1, so the row sums are sums of real numbers, 0 · d vanishes, and
  0 − ∑ⱼ (−wⱼ) = ∑ⱼ wⱼ (Laplacian.row_of_negated, Laplacian.row_of_degree). Nothing is asked of the inputs beyond what
  the claim's precondition already grants; the precondition itself is never opened.

  The modules: Laplacian (a row of L and its two writings), Spec (the result function), LibMatmulTN and LibKeepdims
  (a product contracting both first axes, and a kept-axis row sum's column, read at an entry), RowTile (the body's
  arithmetic at an entry of one tile), Block (the four stored tiles as one function of the block index), KernelValue
  (the blocks tile the result array; the kernel's run), Reference (the reference's last stage at an entry).
-/
import proofs.«166562_g65481071400876_cont_9to1_m_40_15_alg».proof.Defs
import proofs.«166562_g65481071400876_cont_9to1_m_40_15_alg».proof.Proof.Gen.Kernel
import proofs.«166562_g65481071400876_cont_9to1_m_40_15_alg».proof.Proof.Gen.Kernel.Skeleton
import proofs.«166562_g65481071400876_cont_9to1_m_40_15_alg».proof.Proof.Gen.Kernel.Launch
import proofs.«166562_g65481071400876_cont_9to1_m_40_15_alg».proof.Proof.Gen.Kernel.Points
import proofs.«166562_g65481071400876_cont_9to1_m_40_15_alg».proof.Proof.Gen.Kernel.Frame
import proofs.«166562_g65481071400876_cont_9to1_m_40_15_alg».proof.Proof.Gen.KernelIdeal
import proofs.«166562_g65481071400876_cont_9to1_m_40_15_alg».proof.Proof.Gen.KernelIdeal.Skeleton
import proofs.«166562_g65481071400876_cont_9to1_m_40_15_alg».proof.Proof.Gen.KernelIdeal.Launch
import proofs.«166562_g65481071400876_cont_9to1_m_40_15_alg».proof.Proof.Gen.KernelIdeal.Points
import proofs.«166562_g65481071400876_cont_9to1_m_40_15_alg».proof.Proof.Gen.KernelIdeal.Frame
import proofs.«166562_g65481071400876_cont_9to1_m_40_15_alg».proof.Proof.Gen.ReferenceIdeal
import proofs.«166562_g65481071400876_cont_9to1_m_40_15_alg».proof.Proof.Gen.Pre_finite_inputs
import proofs.«166562_g65481071400876_cont_9to1_m_40_15_alg».proof.Proof.Gen.KernelIdeal.Value
import proofs.«166562_g65481071400876_cont_9to1_m_40_15_alg».proof.Proof.Gen.ReferenceIdeal.Run
import proofs.«166562_g65481071400876_cont_9to1_m_40_15_alg».proof.Proof.Gen.ReferenceIdeal.Read
import proofs.«166562_g65481071400876_cont_9to1_m_40_15_alg».proof.Proof.KernelValue
import proofs.«166562_g65481071400876_cont_9to1_m_40_15_alg».proof.Proof.Reference
import Idealize.ShloMosaic.Adequacy
import Idealize.ShloMosaic.Init

noncomputable section

namespace Cert.Proof

open Idealize.ShloMosaic Idealize.ShloMosaic.TcCoe Idealize.SL.Sem

/-- The kernel as printed runs, and leaves its argument as it was. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs, and leaves its argument as it was: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel over the extended reals rewrote none of its operations. -/
theorem preserves : Cert.preserves_Kernel_KernelIdeal := trivial

/-- From arguments that agree, the kernel's result array and the reference's both end at the Laplacian of every batch
    element of the argument, the same extended real at every entry. -/
theorem algebraic : Cert.algebraic_KernelIdeal_ReferenceIdeal := by
  intro m ρ m' ρ' _ hagree
  refine ⟨fun c => Cert.LapSpec.lap (m ((c.tc : Thread Cert.KernelIdeal.nD Cert.KernelIdeal.τ).loc Cert.KernelIdeal.main_arg0)),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
